-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x10 : Shape := ⟨2, ![800000, 10]⟩
abbrev S800000 : Shape := ⟨1, ![800000]⟩
abbrev S138x64 : Shape := ⟨2, ![138, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x10 : S_.BroadcastsInDim S800000x10 (![] : Fin 0 → Fin S800000x10.rank)
  reducesTo_S800000x10_S_d0_1 : S800000x10.ReducesTo [0, 1] S_
  bcast_S_S138x64 : S_.BroadcastsInDim S138x64 (![] : Fin 0 → Fin S138x64.rank)
  reducesTo_S138x64_S_d0_1 : S138x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S138x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S138x64 .f32 := Host.absf main_arg6
  let main_cst_6 : FVec F S_ .f32 := constant S_ .f32 0x7F800000#32
  let main_v20 : FVec F S138x64 .f32 := broadcastInDim S138x64 ![] bcast_S_S138x64 main_cst_6
  let main_v21 : IVec S138x64 1 := cmpf .olt main_v19 main_v20
  let main_c_7 : IVec S_ 1 := constantI S_ 1 1#1
  let main_v22 : IVec S_ 1 := (fun x v => Host.reduce IntOp.andi x v reducesTo_S138x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x10 .f32) (main_arg2 : IVec S800000 32) (main_arg3 : IVec S800000 32) (main_arg4 : FVec F S138x64 .f32) (main_arg5 : FVec F S64 .f32) (main_arg6 : FVec F S138x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x10 .f32 := Host.absf main_arg1
  let main_cst_0 : FVec F S_ .f32 := constant S_ .f32 0x7F800000#32
  let main_v5 : FVec F S800000x10 .f32 := broadcastInDim S800000x10 ![] bcast_S_S800000x10 main_cst_0
  let main_v6 : IVec S800000x10 1 := cmpf .olt main_v4 main_v5
  let main_c_1 : IVec S_ 1 := constantI S_ 1 1#1
  let main_v7 : IVec S_ 1 := (fun x v => Host.reduce IntOp.andi x v reducesTo_S800000x10_S_d0_1 h_S_) main_v6 main_c_1
  let main_v8 : IVec S_ 1 := andi main_v3 main_v7
  let main_v9 : FVec F S138x64 .f32 := Host.absf main_arg4
  let main_cst_2 : FVec F S_ .f32 := constant S_ .f32 0x7F800000#32
  let main_v10 : FVec F S138x64 .f32 := broadcastInDim S138x64 ![] bcast_S_S138x64 main_cst_2
  let main_v11 : IVec S138x64 1 := cmpf .olt main_v9 main_v10
  let main_c_3 : IVec S_ 1 := constantI S_ 1 1#1
  let main_v12 : IVec S_ 1 := (fun x v => Host.reduce IntOp.andi x v reducesTo_S138x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x64 : Shape := ⟨2, ![50000, 64]⟩
abbrev S800000x10 : Shape := ⟨2, ![800000, 10]⟩
abbrev S800000 : Shape := ⟨1, ![800000]⟩
abbrev S138x64 : Shape := ⟨2, ![138, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S64x64 : Shape := ⟨2, ![64, 64]⟩
abbrev S10x64 : Shape := ⟨2, ![10, 64]⟩
abbrev S8000x64 : Shape := ⟨2, ![8000, 64]⟩
abbrev S8000x10 : Shape := ⟨2, ![8000, 10]⟩
abbrev S1x64 : Shape := ⟨2, ![1, 64]⟩
abbrev S5000x64 : Shape := ⟨2, ![5000, 64]⟩

abbrev nBuf : Space → Nat
  | .hbm => 38
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000x10, .f32⟩
  | .hbm, ⟨2, _⟩ => ⟨S800000, .i32⟩
  | .hbm, ⟨3, _⟩ => ⟨S800000, .i32⟩
  | .hbm, ⟨4, _⟩ => ⟨S138x64, .f32⟩
  | .hbm, ⟨5, _⟩ => ⟨S64, .f32⟩
  | .hbm, ⟨6, _⟩ => ⟨S138x64, .f32⟩
  | .hbm, ⟨7, _⟩ => ⟨S64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S64x64, .f32⟩
  | .hbm, ⟨27, _⟩ => ⟨S64x64, .f32⟩
  | .hbm, ⟨28, _⟩ => ⟨S10x64, .f32⟩
  | .hbm, ⟨29, _⟩ => ⟨S64x64, .f32⟩
  | .hbm, ⟨30, _⟩ => ⟨S64x64, .f32⟩
  | .hbm, ⟨31, _⟩ => ⟨S10x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x10, .f32⟩
  | .local _ .vmem, ⟨5, _⟩ => ⟨S8000x10, .f32⟩
  | .local _ .vmem, ⟨6, _⟩ => ⟨S64x64, .f32⟩
  | .local _ .vmem, ⟨7, _⟩ => ⟨S64x64, .f32⟩
  | .local _ .vmem, ⟨8, _⟩ => ⟨S10x64, .f32⟩
  | .local _ .vmem, ⟨9, _⟩ => ⟨S64, .f32⟩
  | .local _ .vmem, ⟨10, _⟩ => ⟨S64x64, .f32⟩
  | .local _ .vmem, ⟨11, _⟩ => ⟨S64x64, .f32⟩
  | .local _ .vmem, ⟨12, _⟩ => ⟨S10x64, .f32⟩
  | .local _ .vmem, ⟨13, _⟩ => ⟨S64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S138x64_S64x64_0_0 : S138x64.Slices ![0, 0] S64x64
  slices_S138x64_S64x64_64_0 : S138x64.Slices ![64, 0] S64x64
  slices_S138x64_S10x64_128_0 : S138x64.Slices ![128, 0] S10x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x10_S8000x10_0_0 : ∀ a, (![0, 0] : Fin 2 → Nat) a + S8000x10.size a ≤ S8000x10.size a
  h_S8000x10 : 0 < S8000x10.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10x64_S10x64_0_0 : ∀ a, (![0, 0] : Fin 2 → Nat) a + S10x64.size a ≤ S10x64.size a
  h_S10x64 : 0 < S10x64.numel
  shapeCasts_S10x64_S10x64 : S10x64.ShapeCasts S10x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x10_S10x64_S8000x64_1_0_0_1_n_n_wf : DotDims.WF S8000x10 S10x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x10.size a ≤ S800000x10.size a
  hwx0_2 : ∀ i : grid0.Coords, EltTy.bits .f32 = 32 ∨ (Rect.block (s := S800000x10) S8000x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x64.size a ≤ S10x64.size a
  hwx0_5 : ∀ i : grid0.Coords, EltTy.bits .f32 = 32 ∨ (Rect.block (s := S10x64) S10x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x64.size a ≤ S10x64.size a
  hwx0_9 : ∀ i : grid0.Coords, EltTy.bits .f32 = 32 ∨ (Rect.block (s := S10x64) S10x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x64.size a ≤ S800000x64.size a
  hwx0_11 : ∀ i : grid0.Coords, EltTy.bits .f32 = 32 ∨ (Rect.block (s := S800000x64) S8000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x10_S10x64_S8000x64_1_0_0_1_n_n : DotDims S8000x10 S10x64 S8000x64 where
  lhsContracting := [1]
  rhsContracting := [0]
  lhsNonContracting := [0]
  rhsNonContracting := [1]
  lhsBatch := []
  rhsBatch := []
  wf := dot_S8000x10_S10x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S10x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S8000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x10 : Shape := ⟨2, ![800000, 10]⟩
abbrev S800000 : Shape := ⟨1, ![800000]⟩
abbrev S138x64 : Shape := ⟨2, ![138, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S800000x138 : Shape := ⟨2, ![800000, 138]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x10, .f32⟩
  | .hbm, ⟨2, _⟩ => ⟨S800000, .i32⟩
  | .hbm, ⟨3, _⟩ => ⟨S800000, .i32⟩
  | .hbm, ⟨4, _⟩ => ⟨S138x64, .f32⟩
  | .hbm, ⟨5, _⟩ => ⟨S64, .f32⟩
  | .hbm, ⟨6, _⟩ => ⟨S138x64, .f32⟩
  | .hbm, ⟨7, _⟩ => ⟨S64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x138, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S800000x64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S800000x64, .i1⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x10_S800000x138_d1 : Shape.Concatenates [S800000x64, S800000x64, S800000x10] S800000x138 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x138_S138x64_S800000x64_1_0_0_1_n_n_wf : DotDims.WF S800000x138 S138x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x138_S138x64_S800000x64_1_0_0_1_n_n : DotDims S800000x138 S138x64 S800000x64 where
  lhsContracting := [1]
  rhsContracting := [0]
  lhsNonContracting := [0]
  rhsNonContracting := [1]
  lhsBatch := []
  rhsBatch := []
  wf := dot_S800000x138_S138x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.EdgeGate.lean ====
/-
  The gated edge message, as one function of its operands.

  Every edge `e` carries the row `a e` of its source node, the row `b e` of its destination node (64 numbers each)
  and its own 10 distance features `d e`. A score is the affine form
      mix = (∑ₕ a h · u h + ∑ₕ b h · v h) + ∑ₕ d h · w h + bias
  for a column (u, v, w) of a 138-row weight matrix cut into its first 64, next 64 and last 10 rows, and the message is
      gate zf zs = logistic zf · softplus zs
  of two such scores. The sum over the 138 joined coordinates splits into the three partial sums (`sum_split`):
  addition on the extended reals is commutative and associative, so no finiteness is needed.
-/
import Idealize.ShloMosaic.Lib.ValueIdx
import Idealize.ShloMosaic.PureOps.Ideal.Laws

noncomputable section

namespace Cert.EdgeGate

open Idealize.ShloMosaic Idealize.ShloMosaic.ValueIdx

/-- The float word of zero, as both programs write it. -/
abbrev z32 : EReal := Ideal.ofBits .f32 0x00000000#32

/-- `softplus x = log (1 + eˣ)` in its overflow-safe spelling `max x 0 + log1p (exp (-|x - 0|))`, behind the
    comparison `x - 0 ≠ x - 0` that would select `x + 0` (never true on the extended reals). -/
def softplus (x : EReal) : EReal :=
  Scalar.select (Ideal.cmp .one (x - z32) (x - z32)) (x + z32)
    (max x z32 + Ideal.log1p (Ideal.exp (z32 - max (x - z32) (-(x - z32)))))

/-- The same value with the exponent spelt as a negation and the comparison as "unordered or unequal". -/
theorem softplus_neg (x : EReal) :
    Scalar.select (Ideal.cmp .une (x - z32) (x - z32)) (x + z32)
      (max x z32 + Ideal.log1p (Ideal.exp (-(max (x - z32) (-(x - z32)))))) = softplus x := by
  unfold softplus
  rw [show (z32 - max (x - z32) (-(x - z32))) = -(max (x - z32) (-(x - z32))) from by
    rw [show z32 = (0 : EReal) from Ideal.ofBits_zero_f32, zero_sub]]
  rfl

/-- The message from its two scores. -/
def gate (zf zs : EReal) : EReal := Ideal.logistic zf * softplus zs

/-- One score: the three partial dot products, added in this order, plus the bias. -/
def mix (a b : Fin 64 → EReal) (d : Fin 10 → EReal) (u v : Fin 64 → EReal) (w : Fin 10 → EReal) (bias : EReal) : EReal :=
  ((∑ h : Fin 64, a h * u h) + (∑ h : Fin 64, b h * v h) + ∑ h : Fin 10, d h * w h) + bias

/-- A sum over 138 coordinates is the sum over the first 64, plus the next 64, plus the last 10. -/
theorem sum_split (f : Fin 138 → EReal) :
    ∑ k : Fin 138, f k
      = ((∑ h : Fin 64, f ⟨h.val, by omega⟩) + ∑ h : Fin 64, f ⟨64 + h.val, by omega⟩) + ∑ h : Fin 10, f ⟨128 + h.val, by omega⟩ := by
  have h1 := Fin.sum_univ_add (a := 64 + 64) (b := 10) (f : Fin (64 + 64 + 10) → EReal)
  have h2 := Fin.sum_univ_add (a := 64) (b := 64) (fun i => (f : Fin (64 + 64 + 10) → EReal) (Fin.castAdd 10 i))
  rw [h2] at h1
  exact h1

/-- The message of edge `e` at output feature `c`, from the whole operand arrays: the two gathered row tables
    `A`, `B` ([E, 64]), the distances `D` ([E, 10]), the three row blocks of each weight matrix and the two biases. -/
def gatedAt (A B : (⟨2, ![800000, 64]⟩ : Shape).Idx → EReal) (D : (⟨2, ![800000, 10]⟩ : Shape).Idx → EReal)
    (U V : (⟨2, ![64, 64]⟩ : Shape).Idx → EReal) (W : (⟨2, ![10, 64]⟩ : Shape).Idx → EReal) (bf : (⟨1, ![64]⟩ : Shape).Idx → EReal)
    (U' V' : (⟨2, ![64, 64]⟩ : Shape).Idx → EReal) (W' : (⟨2, ![10, 64]⟩ : Shape).Idx → EReal) (bs : (⟨1, ![64]⟩ : Shape).Idx → EReal)
    (e : Fin 800000) (c : Fin 64) : EReal :=
  gate
    (mix (fun h => A (ix2 e h)) (fun h => B (ix2 e h)) (fun h => D (ix2 e h))
      (fun h => U (ix2 h c)) (fun h => V (ix2 h c)) (fun h => W (ix2 h c)) (bf (ix1 c)))
    (mix (fun h => A (ix2 e h)) (fun h => B (ix2 e h)) (fun h => D (ix2 e h))
      (fun h => U' (ix2 h c)) (fun h => V' (ix2 h c)) (fun h => W' (ix2 h c)) (bs (ix1 c)))

/-- The whole [E, 64] array of messages. -/
def gated (A B : (⟨2, ![800000, 64]⟩ : Shape).Idx → EReal) (D : (⟨2, ![800000, 10]⟩ : Shape).Idx → EReal)
    (U V : (⟨2, ![64, 64]⟩ : Shape).Idx → EReal) (W : (⟨2, ![10, 64]⟩ : Shape).Idx → EReal) (bf : (⟨1, ![64]⟩ : Shape).Idx → EReal)
    (U' V' : (⟨2, ![64, 64]⟩ : Shape).Idx → EReal) (W' : (⟨2, ![10, 64]⟩ : Shape).Idx → EReal) (bs : (⟨1, ![64]⟩ : Shape).Idx → EReal) :
    (⟨2, ![800000, 64]⟩ : Shape).Idx → EReal :=
  fun i => gatedAt A B D U V W bf U' V' W' bs (i 0) (i 1)

theorem gated_ix2 (A B : (⟨2, ![800000, 64]⟩ : Shape).Idx → EReal) (D : (⟨2, ![800000, 10]⟩ : Shape).Idx → EReal)
    (U V : (⟨2, ![64, 64]⟩ : Shape).Idx → EReal) (W : (⟨2, ![10, 64]⟩ : Shape).Idx → EReal) (bf : (⟨1, ![64]⟩ : Shape).Idx → EReal)
    (U' V' : (⟨2, ![64, 64]⟩ : Shape).Idx → EReal) (W' : (⟨2, ![10, 64]⟩ : Shape).Idx → EReal) (bs : (⟨1, ![64]⟩ : Shape).Idx → EReal)
    (e : Fin 800000) (c : Fin 64) :
    gated A B D U V W bf U' V' W' bs (ix2 e c) = gatedAt A B D U V W bf U' V' W' bs e c := rfl

end Cert.EdgeGate

end
-- ==== Proof.GateBody.lean ====
/-
  What the gate kernel's body stores, read at one entry of its [8000, 64] output block.

  The body forms the two scores of every edge row of the block — each a sum of three matrix products
  (the source rows, the destination rows and the distances against the three row blocks of a weight matrix, operands
  rounded to bf16, which is the identity on the extended reals) plus a bias row spread down the block — and stores
  logistic(first score) · softplus(second score). At entry (p, q) each product is the sum over the contracted
  coordinate of row p of the left operand against column q of the right.
-/
import proofs.«120334_j18210661335120_2_alg».proof.Proof.Gen.KernelIdeal.Skeleton
import proofs.«120334_j18210661335120_2_alg».proof.Proof.LibMatProduct
import proofs.«120334_j18210661335120_2_alg».proof.Proof.EdgeGate
import Idealize.ShloMosaic.Lib.ValueLayout
import Idealize.ShloMosaic.Lib.Pipeline.Value

noncomputable section

namespace Cert.KernelIdeal.GateBody

open Idealize.ShloMosaic Idealize.ShloMosaic.ValueIdx Cert.KernelIdeal Cert.KernelIdeal.Gen Cert.EdgeGate

/-- A [8000, 64] · [64, 64] product of the body at entry (p, q). -/
theorem dot64_at (a : FVec Ideal S8000x64 .bf16) (u : FVec Ideal S64x64 .bf16) (p : Fin 8000) (q : Fin 64) :
    matmul dot_S8000x64_S64x64_S8000x64_1_0_0_1_n_n none a u (constant S8000x64 .f32 0x00000000#32) (ix2 p q)
      = ∑ h : Fin 64, a (ix2 p h) * u (ix2 h q) :=
  Cert.LibMatProduct.matmul_zero_apply dot_S8000x64_S64x64_S8000x64_1_0_0_1_n_n none rfl rfl rfl rfl rfl rfl a u p q

/-- The [8000, 10] · [10, 64] product of the body at entry (p, q). -/
theorem dot10_at (a : FVec Ideal S8000x10 .bf16) (u : FVec Ideal S10x64 .bf16) (p : Fin 8000) (q : Fin 64) :
    matmul dot_S8000x10_S10x64_S8000x64_1_0_0_1_n_n none a u (constant S8000x64 .f32 0x00000000#32) (ix2 p q)
      = ∑ h : Fin 10, a (ix2 p h) * u (ix2 h q) :=
  Cert.LibMatProduct.matmul_zero_apply dot_S8000x10_S10x64_S8000x64_1_0_0_1_n_n none rfl rfl rfl rfl rfl rfl a u p q

/-- A bias vector recast as one row and spread down the block reads, at (p, q), the bias at q. -/
theorem bias_at (b : Vec Ideal S64 .f32) (p : Fin 8000) (q : Fin 64) :
    broadcastTo S8000x64 (shapeCast S1x64 b Facts₀.shapeCasts_S64_S1x64) Facts₀.broadcasts_S1x64_S8000x64 (ix2 p q) = b (ix1 q) :=
  (broadcastTo_1b_ab_apply _ Facts₀.broadcasts_S1x64_S8000x64 p q).trans (shapeCast_a_1a_apply b Facts₀.shapeCasts_S64_S1x64 0 q)

/-- The first score of the body (`%34`) at entry (p, q). -/
theorem score_f_at (x0 x1 : Vec Ideal S8000x64 .f32) (x2 : Vec Ideal S8000x10 .f32) (x3 x4 : Vec Ideal S64x64 .f32)
    (x5 : Vec Ideal S10x64 .f32) (x6 : Vec Ideal S64 .f32) (p : Fin 8000) (q : Fin 64) :
    k0_pay7 x0 x1 x2 x3 x4 x5 x6 (ix2 p q)
      = mix (fun h => x0 (ix2 p h)) (fun h => x1 (ix2 p h)) (fun h => x2 (ix2 p h))
          (fun h => x3 (ix2 h q)) (fun h => x4 (ix2 h q)) (fun h => x5 (ix2 h q)) (x6 (ix1 q)) := by
  unfold k0_pay7 k0_pay2 k0_pay3 k0_pay4 mix
  simp only [shapeCast_self]
  refine congrArg₂ (· + ·) (congrArg₂ (· + ·) (congrArg₂ (· + ·) ?_ ?_) ?_) ?_
  · exact dot64_at _ _ p q
  · exact dot64_at _ _ p q
  · exact dot10_at _ _ p q
  · exact bias_at x6 p q

/-- What the body stores (`%59`) at entry (p, q): the gate of the two scores of row p at output feature q. -/
theorem stored_at (x0 x1 : Vec Ideal S8000x64 .f32) (x2 : Vec Ideal S8000x10 .f32) (x3 x4 : Vec Ideal S64x64 .f32)
    (x5 : Vec Ideal S10x64 .f32) (x6 : Vec Ideal S64 .f32) (x7 x8 : Vec Ideal S64x64 .f32)
    (x9 : Vec Ideal S10x64 .f32) (x10 : Vec Ideal S64 .f32) (p : Fin 8000) (q : Fin 64) :
    k0_pay1 (k0_pay3 x1) (k0_pay4 x2) (k0_pay5 x8) (k0_pay6 x9) (k0_pay7 x0 x1 x2 x3 x4 x5 x6) (k0_pay8 x0 x7) x10 (ix2 p q)
      = gate
          (mix (fun h => x0 (ix2 p h)) (fun h => x1 (ix2 p h)) (fun h => x2 (ix2 p h))
            (fun h => x3 (ix2 h q)) (fun h => x4 (ix2 h q)) (fun h => x5 (ix2 h q)) (x6 (ix1 q)))
          (mix (fun h => x0 (ix2 p h)) (fun h => x1 (ix2 p h)) (fun h => x2 (ix2 p h))
            (fun h => x7 (ix2 h q)) (fun h => x8 (ix2 h q)) (fun h => x9 (ix2 h q)) (x10 (ix1 q))) := by
  have hs : (addf (addf (addf (k0_pay8 x0 x7)
        (matmul dot_S8000x64_S64x64_S8000x64_1_0_0_1_n_n none (k0_pay3 x1) (k0_pay5 x8) (constant S8000x64 .f32 0x00000000#32)))
        (matmul dot_S8000x10_S10x64_S8000x64_1_0_0_1_n_n none (k0_pay4 x2) (k0_pay6 x9) (constant S8000x64 .f32 0x00000000#32)))
        (broadcastTo S8000x64 (shapeCast S1x64 x10 Facts₀.shapeCasts_S64_S1x64) Facts₀.broadcasts_S1x64_S8000x64)) (ix2 p q)
      = mix (fun h => x0 (ix2 p h)) (fun h => x1 (ix2 p h)) (fun h => x2 (ix2 p h))
          (fun h => x7 (ix2 h q)) (fun h => x8 (ix2 h q)) (fun h => x9 (ix2 h q)) (x10 (ix1 q)) := by
    unfold k0_pay8 k0_pay2 k0_pay3 k0_pay4 k0_pay5 k0_pay6 mix
    simp only [shapeCast_self]
    refine congrArg₂ (· + ·) (congrArg₂ (· + ·) (congrArg₂ (· + ·) ?_ ?_) ?_) ?_
    · exact dot64_at _ _ p q
    · exact dot64_at _ _ p q
    · exact dot10_at _ _ p q
    · exact bias_at x10 p q
  unfold k0_pay1 gate softplus
  show FloatOps.mulf (FloatOps.logistic (k0_pay7 x0 x1 x2 x3 x4 x5 x6 (ix2 p q))) _ = _
  rw [score_f_at]
  refine congrArg₂ (· * ·) rfl ?_
  rw [← hs]
  rfl

end Cert.KernelIdeal.GateBody

end
-- ==== Proof.GateBlocks.lean ====
/-
  From the gate kernel's blocks to its whole output array.

  The grid has 100 points; point t reads rows 8000·t … 8000·t + 7999 of the two gathered row tables and of the
  distances, the whole of every weight block and bias, and writes back rows 8000·t … 8000·t + 7999 of the output.
  What it writes is the message function of the whole arrays restricted to those rows, and the 100 row bands cover
  the array, so the array ends holding the message of every edge.
-/
import proofs.«120334_j18210661335120_2_alg».proof.Proof.Gen.KernelIdeal.Frame
import proofs.«120334_j18210661335120_2_alg».proof.Proof.GateBody
import Idealize.ShloMosaic.Lib.Pipeline.Value

noncomputable section

namespace Cert.KernelIdeal.GateBlocks

open Idealize.ShloMosaic Idealize.ShloMosaic.TcCoe Idealize.SL.Sem Idealize.ShloMosaic.ValueIdx
open Idealize.ShloMosaic.Pipeline (Dat)
open Cert.KernelIdeal Cert.KernelIdeal.Gen Cert.EdgeGate

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The messages of all edges, from the arrays as the region finds them. -/
abbrev messages (c : Dev nD) : S800000x64.Idx → EReal :=
  gated (V c main_v6) (V c main_v13) (V c main_arg1) (V c main_v14) (V c main_v15) (V c main_v16) (V c main_arg5)
    (V c main_v17) (V c main_v18) (V c main_v19) (V c main_arg7)

/-- The printed index maps over the grid: the three edge-indexed inputs and the output move with the point along
    the rows; every weight block and bias stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-! ## Each input block read at an entry -/

theorem src_rows (c : Dev nD) (t : Fin cfg0.N) (p : Fin 8000) (h : Fin 64) (e : Fin 800000) (he : e.val = t.val * 8000 + p.val) :
    iblk0 V c 0 t (ix2 p h) = V c main_v6 (ix2 e h) := by
  obtain ⟨e0, e1, -⟩ := idx_facts t
  show V c main_v6 (((cfg0.win 0).blk t).view.emb (ix2 p h)) = V c main_v6 (ix2 e h)
  refine congrArg (V c main_v6) (funext fun a => Fin.ext ?_)
  match a with
  | ⟨0, _⟩ => show win0_0.index t (0 : Fin 2) * 8000 + 1 * p.val = e.val; omega
  | ⟨1, _⟩ => show win0_0.index t (1 : Fin 2) * 64 + 1 * h.val = h.val; omega

theorem dst_rows (c : Dev nD) (t : Fin cfg0.N) (p : Fin 8000) (h : Fin 64) (e : Fin 800000) (he : e.val = t.val * 8000 + p.val) :
    iblk0 V c 1 t (ix2 p h) = V c main_v13 (ix2 e h) := by
  obtain ⟨-, -, e0, e1, -⟩ := idx_facts t
  show V c main_v13 (((cfg0.win 1).blk t).view.emb (ix2 p h)) = V c main_v13 (ix2 e h)
  refine congrArg (V c main_v13) (funext fun a => Fin.ext ?_)
  match a with
  | ⟨0, _⟩ => show win0_1.index t (0 : Fin 2) * 8000 + 1 * p.val = e.val; omega
  | ⟨1, _⟩ => show win0_1.index t (1 : Fin 2) * 64 + 1 * h.val = h.val; omega

theorem dist_rows (c : Dev nD) (t : Fin cfg0.N) (p : Fin 8000) (h : Fin 10) (e : Fin 800000) (he : e.val = t.val * 8000 + p.val) :
    iblk0 V c 2 t (ix2 p h) = V c main_arg1 (ix2 e h) := by
  obtain ⟨-, -, -, -, e0, e1, -⟩ := idx_facts t
  show V c main_arg1 (((cfg0.win 2).blk t).view.emb (ix2 p h)) = V c main_arg1 (ix2 e h)
  refine congrArg (V c main_arg1) (funext fun a => Fin.ext ?_)
  match a with
  | ⟨0, _⟩ => show win0_2.index t (0 : Fin 2) * 8000 + 1 * p.val = e.val; omega
  | ⟨1, _⟩ => show win0_2.index t (1 : Fin 2) * 10 + 1 * h.val = h.val; omega

theorem w3_whole (c : Dev nD) (t : Fin cfg0.N) (h q : Fin 64) : iblk0 V c 3 t (ix2 h q) = V c main_v14 (ix2 h q) := by
  obtain ⟨-, -, -, -, -, -, e0, e1, -⟩ := idx_facts t
  show V c main_v14 (((cfg0.win 3).blk t).view.emb (ix2 h q)) = V c main_v14 (ix2 h q)
  refine congrArg (V c main_v14) (funext fun a => Fin.ext ?_)
  match a with
  | ⟨0, _⟩ => show win0_3.index t (0 : Fin 2) * 64 + 1 * h.val = h.val; omega
  | ⟨1, _⟩ => show win0_3.index t (1 : Fin 2) * 64 + 1 * q.val = q.val; omega

theorem w4_whole (c : Dev nD) (t : Fin cfg0.N) (h q : Fin 64) : iblk0 V c 4 t (ix2 h q) = V c main_v15 (ix2 h q) := by
  obtain ⟨-, -, -, -, -, -, -, -, e0, e1, -⟩ := idx_facts t
  show V c main_v15 (((cfg0.win 4).blk t).view.emb (ix2 h q)) = V c main_v15 (ix2 h q)
  refine congrArg (V c main_v15) (funext fun a => Fin.ext ?_)
  match a with
  | ⟨0, _⟩ => show win0_4.index t (0 : Fin 2) * 64 + 1 * h.val = h.val; omega
  | ⟨1, _⟩ => show win0_4.index t (1 : Fin 2) * 64 + 1 * q.val = q.val; omega

theorem w5_whole (c : Dev nD) (t : Fin cfg0.N) (h : Fin 10) (q : Fin 64) : iblk0 V c 5 t (ix2 h q) = V c main_v16 (ix2 h q) := by
  obtain ⟨-, -, -, -, -, -, -, -, -, -, e0, e1, -⟩ := idx_facts t
  show V c main_v16 (((cfg0.win 5).blk t).view.emb (ix2 h q)) = V c main_v16 (ix2 h q)
  refine congrArg (V c main_v16) (funext fun a => Fin.ext ?_)
  match a with
  | ⟨0, _⟩ => show win0_5.index t (0 : Fin 2) * 10 + 1 * h.val = h.val; omega
  | ⟨1, _⟩ => show win0_5.index t (1 : Fin 2) * 64 + 1 * q.val = q.val; omega

theorem w6_whole (c : Dev nD) (t : Fin cfg0.N) (q : Fin 64) : iblk0 V c 6 t (ix1 q) = V c main_arg5 (ix1 q) := by
  obtain ⟨-, -, -, -, -, -, -, -, -, -, -, -, e0, -⟩ := idx_facts t
  show V c main_arg5 (((cfg0.win 6).blk t).view.emb (ix1 q)) = V c main_arg5 (ix1 q)
  refine congrArg (V c main_arg5) (funext fun a => Fin.ext ?_)
  match a with
  | ⟨0, _⟩ => show win0_6.index t (0 : Fin 1) * 64 + 1 * q.val = q.val; omega

theorem w7_whole (c : Dev nD) (t : Fin cfg0.N) (h q : Fin 64) : iblk0 V c 7 t (ix2 h q) = V c main_v17 (ix2 h q) := by
  obtain ⟨-, -, -, -, -, -, -, -, -, -, -, -, -, e0, e1, -⟩ := idx_facts t
  show V c main_v17 (((cfg0.win 7).blk t).view.emb (ix2 h q)) = V c main_v17 (ix2 h q)
  refine congrArg (V c main_v17) (funext fun a => Fin.ext ?_)
  match a with
  | ⟨0, _⟩ => show win0_7.index t (0 : Fin 2) * 64 + 1 * h.val = h.val; omega
  | ⟨1, _⟩ => show win0_7.index t (1 : Fin 2) * 64 + 1 * q.val = q.val; omega

theorem w8_whole (c : Dev nD) (t : Fin cfg0.N) (h q : Fin 64) : iblk0 V c 8 t (ix2 h q) = V c main_v18 (ix2 h q) := by
  obtain ⟨-, -, -, -, -, -, -, -, -, -, -, -, -, -, -, e0, e1, -⟩ := idx_facts t
  show V c main_v18 (((cfg0.win 8).blk t).view.emb (ix2 h q)) = V c main_v18 (ix2 h q)
  refine congrArg (V c main_v18) (funext fun a => Fin.ext ?_)
  match a with
  | ⟨0, _⟩ => show win0_8.index t (0 : Fin 2) * 64 + 1 * h.val = h.val; omega
  | ⟨1, _⟩ => show win0_8.index t (1 : Fin 2) * 64 + 1 * q.val = q.val; omega

theorem w9_whole (c : Dev nD) (t : Fin cfg0.N) (h : Fin 10) (q : Fin 64) : iblk0 V c 9 t (ix2 h q) = V c main_v19 (ix2 h q) := by
  obtain ⟨-, -, -, -, -, -, -, -, -, -, -, -, -, -, -, -, -, e0, e1, -⟩ := idx_facts t
  show V c main_v19 (((cfg0.win 9).blk t).view.emb (ix2 h q)) = V c main_v19 (ix2 h q)
  refine congrArg (V c main_v19) (funext fun a => Fin.ext ?_)
  match a with
  | ⟨0, _⟩ => show win0_9.index t (0 : Fin 2) * 10 + 1 * h.val = h.val; omega
  | ⟨1, _⟩ => show win0_9.index t (1 : Fin 2) * 64 + 1 * q.val = q.val; omega

theorem w10_whole (c : Dev nD) (t : Fin cfg0.N) (q : Fin 64) : iblk0 V c 10 t (ix1 q) = V c main_arg7 (ix1 q) := by
  obtain ⟨-, -, -, -, -, -, -, -, -, -, -, -, -, -, -, -, -, -, -, e0, -⟩ := idx_facts t
  show V c main_arg7 (((cfg0.win 10).blk t).view.emb (ix1 q)) = V c main_arg7 (ix1 q)
  refine congrArg (V c main_arg7) (funext fun a => Fin.ext ?_)
  match a with
  | ⟨0, _⟩ => show win0_10.index t (0 : Fin 1) * 64 + 1 * q.val = q.val; omega

/-! ## What a point writes back, and the cover -/

/-- Point `t` writes back rows 8000·t … of the message array. -/
theorem flushed_eq (c : Dev nD) (t : Fin cfg0.N) :
    (dat0 V c).flushed 11 t = ((cfg0.win 11).blk t).view.read (Elt Ideal) (messages V c) := by
  show (cfg0.win 11).cut (grid0.coords t) ((dat0 V c).after 11 t) = _
  rw [after0_11]
  unfold out0_11
  rw [View.canon_unit_zero hz2]
  simp only [View.ld_unit_zero (S := S8000x64) hz2, View.ld_unit_zero (S := S8000x10) hz2, View.ld_unit_zero (S := S64x64) hz2,
    View.ld_unit_zero (S := S10x64) hz2, View.ld_unit_zero (S := S64) hz1]
  funext j
  obtain ⟨p, q, rfl⟩ : ∃ (p : Fin 8000) (q : Fin 64), j = ix2 p q := ⟨j 0, j 1, eq_ix2 j⟩
  obtain ⟨-, -, -, -, -, -, -, -, -, -, -, -, -, -, -, -, -, -, -, -, o0, o1⟩ := idx_facts t
  have hlt : t.val < 100 := Nat.lt_of_lt_of_eq t.isLt N_0
  have hrow : ((((cfg0.win 11).blk t).view.emb (ix2 p q)) : S800000x64.Idx) = ix2 (⟨t.val * 8000 + p.val, by omega⟩ : Fin 800000) q := by
    funext a; apply Fin.ext
    match a with
    | ⟨0, _⟩ => show win0_11.index t (0 : Fin 2) * 8000 + 1 * p.val = t.val * 8000 + p.val; omega
    | ⟨1, _⟩ => show win0_11.index t (1 : Fin 2) * 64 + 1 * q.val = q.val; omega
  refine (GateBody.stored_at (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  show _ = messages V c (((cfg0.win 11).blk t).view.emb (ix2 p q))
  rw [hrow]
  unfold messages
  rw [gated_ix2]
  unfold gatedAt
  simp only [src_rows V c t p _ ⟨t.val * 8000 + p.val, by omega⟩ rfl, dst_rows V c t p _ ⟨t.val * 8000 + p.val, by omega⟩ rfl,
    dist_rows V c t p _ ⟨t.val * 8000 + p.val, by omega⟩ rfl, w3_whole, w4_whole, w5_whole, w6_whole, w7_whole, w8_whole,
    w9_whole, w10_whole]

/-- An index of the output array is in point `t`'s block iff each coordinate is in the block's range on its axis. -/
theorem mem_blk (t : Fin cfg0.N) (i : S800000x64.Idx) :
    i ∈ ((cfg0.win 11).blk t).view.set ↔ ∀ a : Fin 2, win0_11.index t a * S8000x64.size a ≤ (i a).val ∧ (i a).val < win0_11.index t a * S8000x64.size a + S8000x64.size a := by
  show i ∈ ((View.whole main_v20).slice (win0_11.rect t)).set ↔ _
  rw [View.set_slice_whole, Rect.mem_set_unit]
  exact Iff.rfl

/-- Row `r` lies in the band of point `r / 8000`. -/
theorem cover (i : S800000x64.Idx) : ∃ t : Fin cfg0.N, (cfg0.win 11).flush t = true ∧ i ∈ ((cfg0.win 11).blk t).view.set := by
  have hi0 : (i 0).val < 800000 := (i 0).isLt
  have hi1 : (i 1).val < 64 := (i 1).isLt
  let t : Fin cfg0.N := ⟨(i 0).val / 8000, Nat.lt_of_lt_of_eq (show (i 0).val / 8000 < 100 by omega) N_0.symm⟩
  obtain ⟨-, -, -, -, -, -, -, -, -, -, -, -, -, -, -, -, -, -, -, -, o0, o1⟩ := idx_facts t
  have ht : t.val = (i 0).val / 8000 := rfl
  refine ⟨t, flush0_11 t, ?_⟩
  rw [mem_blk]
  intro a
  match a with
  | ⟨0, _⟩ => show win0_11.index t (0 : Fin 2) * 8000 ≤ (i 0).val ∧ (i 0).val < win0_11.index t (0 : Fin 2) * 8000 + 8000; omega
  | ⟨1, _⟩ => show win0_11.index t (1 : Fin 2) * 64 ≤ (i 1).val ∧ (i 1).val < win0_11.index t (1 : Fin 2) * 64 + 64; omega

/-- After the region the output array holds the message of every edge. -/
theorem messages_final (c : Dev nD) : (dat0 V c).arrAt 11 cfg0.N = messages V c :=
  (dat0 V c).arrAt_eq_of_cover 11 (messages V c) (fun t _ => flushed_eq V c t) cover

end Cert.KernelIdeal.GateBlocks

end
-- ==== Proof.Residual.lean ====
/-
  The residual kernel: its blocks, and its whole output array.

  The grid has 10 points; point t reads rows 5000·t … 5000·t + 4999 of the node features and of the summed messages
  and writes back the same rows of the output, each entry the sum of the two entries read. The 10 row bands cover
  the [50000, 64] array, so it ends holding features + summed messages, entry by entry.
-/
import proofs.«120334_j18210661335120_2_alg».proof.Proof.Gen.KernelIdeal.Frame
import Idealize.ShloMosaic.Lib.ValueIdx
import Idealize.ShloMosaic.Lib.Pipeline.Value

noncomputable section

namespace Cert.KernelIdeal.Residual

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- Features plus summed messages, from the arrays as the region finds them. -/
abbrev updated (c : Dev nD) : S50000x64.Idx → EReal :=
  addf (F := Ideal) (s := S50000x64) (φ := .f32) (V c main_arg0) (V c main_v23)

/-- What the body stores at an entry: the sum of the two entries it loaded. -/
theorem stored_at (x0 x1 : Vec Ideal S5000x64 .f32) (j : S5000x64.Idx) : k1_pay1 x0 x1 j = x0 j + x1 j := by
  unfold k1_pay1
  simp only [shapeCast_self]
  rfl

/-- The printed index maps over the grid: all three windows move with the point along the rows. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Point `t` writes back rows 5000·t … of features + summed messages. -/
theorem flushed_eq (c : Dev nD) (t : Fin cfg1.N) :
    (dat1 V c).flushed 2 t = ((cfg1.win 2).blk t).view.read (Elt Ideal) (updated V c) := by
  show (cfg1.win 2).cut (grid1.coords t) ((dat1 V c).after 2 t) = _
  rw [after1_2]
  unfold out1_2
  rw [View.canon_unit_zero hz2]
  simp only [View.ld_unit_zero (S := S5000x64) hz2]
  obtain ⟨e0, e1, e2, e3, e4, e5⟩ := idx_facts t
  funext j
  refine (stored_at (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  have r0 : iblk1 V c 0 t j = V c main_arg0 (((cfg1.win 2).blk t).view.emb j) := by
    show V c main_arg0 (((cfg1.win 0).blk t).view.emb j) = _
    rw [h0]
  have r1 : iblk1 V c 1 t j = V c main_v23 (((cfg1.win 2).blk t).view.emb j) := by
    show V c main_v23 (((cfg1.win 1).blk t).view.emb j) = _
    rw [h1]
  rw [r0, r1]
  rfl

/-- An index of the output array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v24).slice (win1_2.rect t)).set ↔ _
  rw [View.set_slice_whole, Rect.mem_set_unit]
  exact Iff.rfl

/-- Row `r` lies in the band of point `r / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 5000, Nat.lt_of_lt_of_eq (show (i 0).val / 5000 < 10 by omega) N_1.symm⟩
  obtain ⟨-, -, -, -, o0, o1⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the output array holds features + summed messages. -/
theorem updated_final (c : Dev nD) : (dat1 V c).arrAt 2 cfg1.N = updated V c :=
  (dat1 V c).arrAt_eq_of_cover 2 (updated V c) (fun t _ => flushed_eq V c t) cover

end Cert.KernelIdeal.Residual

end
-- ==== Proof.KernelRun.lean ====
/-
  The kernel program's run, read: what its result array holds.

  @main is four stretches: host operations (the two row gathers of the node features by the wrapped source and
  destination indices, and the six row blocks cut from the two weight matrices), the gate kernel over the edges, host
  operations (the scatter-sum of the messages into their destination rows), and the residual kernel over the nodes.
  The buffer contents at each boundary are a fold through these stretches; this module walks the fold back from the
  result array: features + scatter-sum of the message array of the gathered rows.
-/
import proofs.«120334_j18210661335120_2_alg».proof.Proof.Gen.KernelIdeal.Frame
import proofs.«120334_j18210661335120_2_alg».proof.Proof.GateBlocks
import proofs.«120334_j18210661335120_2_alg».proof.Proof.Residual
import proofs.«120334_j18210661335120_2_alg».proof.Proof.Gen.ReferenceIdeal.Read
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.EdgeGate

section Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array at the last boundary's contents
    and the argument arrays as launched. -/
theorem run_fold : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Generic

/-! ## The fold, walked back from the result array (at the extended reals) -/

section Value

variable (m : (ℓ : Loc nD τ sig) → Buf (Elt Ideal) ℓ) (ρ : Dev nD → PrngReg)

/-- jnp's index wrap, as @main spells it: a negative index counts from the end of the 50000 rows; the result as a
    column of start indices. -/
def wrapped (x : (⟨S800000, .i32⟩ : BufTy).Contents (Elt Ideal)) : (⟨S800000x1, .i32⟩ : BufTy).Contents (Elt Ideal) :=
  broadcastInDim S800000x1 ![0] Facts₀.bcast_S800000_S800000x1_0
    (select (cmpi .slt x (broadcastInDim S800000 ![] Facts₀.bcast_S_S800000 (constantI S_ 32 0#32)))
      (addi x (broadcastInDim S800000 ![] Facts₀.bcast_S_S800000 (constantI S_ 32 50000#32))) x)

/-- The rows of the feature table that an index vector names, one per edge. -/
def rowsAt (feat : (⟨S50000x64, .f32⟩ : BufTy).Contents (Elt Ideal)) (x : (⟨S800000, .i32⟩ : BufTy).Contents (Elt Ideal)) :
    (⟨S800000x64, .f32⟩ : BufTy).Contents (Elt Ideal) :=
  Host.gather gather_S50000x64_S800000x1_S800000x64_1_0_n_n_0_1_164 feat (wrapped x)

/-- The scatter-sum of per-edge rows into the rows their destination indices name, from zero. -/
def summedInto (x : (⟨S800000, .i32⟩ : BufTy).Contents (Elt Ideal)) (u : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] Facts₀.bcast_S_S50000x64 (constant (F := Ideal) S_ .f32 0x00000000#32))
    (broadcastInDim S800000x1 ![0] Facts₀.bcast_S800000_S800000x1_0 x) u

/-! ### What the gate kernel finds in its eleven input arrays -/

theorem src_table (c : Dev nD) :
    V1 m ρ c main_v6 = rowsAt (m ((c : Thread nD τ).loc main_arg0)) (m ((c : Thread nD τ).loc main_arg2)) := by
  show StableHlo.after hostOps0 (W0 m ρ c) (Proc.devRef .tc main_v6) = _
  after_results <;> rfl

theorem dst_table (c : Dev nD) :
    V1 m ρ c main_v13 = rowsAt (m ((c : Thread nD τ).loc main_arg0)) (m ((c : Thread nD τ).loc main_arg3)) := by
  show StableHlo.after hostOps0 (W0 m ρ c) (Proc.devRef .tc main_v13) = _
  after_results <;> rfl

theorem dist_kept (c : Dev nD) : V1 m ρ c main_arg1 = m ((c : Thread nD τ).loc main_arg1) := by
  show StableHlo.after hostOps0 (W0 m ρ c) (Proc.devRef .tc main_arg1) = _
  after_results <;> rfl

theorem bf_kept (c : Dev nD) : V1 m ρ c main_arg5 = m ((c : Thread nD τ).loc main_arg5) := by
  show StableHlo.after hostOps0 (W0 m ρ c) (Proc.devRef .tc main_arg5) = _
  after_results <;> rfl

theorem bs_kept (c : Dev nD) : V1 m ρ c main_arg7 = m ((c : Thread nD τ).loc main_arg7) := by
  show StableHlo.after hostOps0 (W0 m ρ c) (Proc.devRef .tc main_arg7) = _
  after_results <;> rfl

theorem wf_src (c : Dev nD) :
    V1 m ρ c main_v14 = extractStridedSlice S64x64 ![0, 0] (m ((c : Thread nD τ).loc main_arg4)) Facts₀.slices_S138x64_S64x64_0_0 := by
  show StableHlo.after hostOps0 (W0 m ρ c) (Proc.devRef .tc main_v14) = _
  after_results <;> rfl

theorem wf_dst (c : Dev nD) :
    V1 m ρ c main_v15 = extractStridedSlice S64x64 ![64, 0] (m ((c : Thread nD τ).loc main_arg4)) Facts₀.slices_S138x64_S64x64_64_0 := by
  show StableHlo.after hostOps0 (W0 m ρ c) (Proc.devRef .tc main_v15) = _
  after_results <;> rfl

theorem wf_dist (c : Dev nD) :
    V1 m ρ c main_v16 = extractStridedSlice S10x64 ![128, 0] (m ((c : Thread nD τ).loc main_arg4)) Facts₀.slices_S138x64_S10x64_128_0 := by
  show StableHlo.after hostOps0 (W0 m ρ c) (Proc.devRef .tc main_v16) = _
  after_results <;> rfl

theorem ws_src (c : Dev nD) :
    V1 m ρ c main_v17 = extractStridedSlice S64x64 ![0, 0] (m ((c : Thread nD τ).loc main_arg6)) Facts₀.slices_S138x64_S64x64_0_0 := by
  show StableHlo.after hostOps0 (W0 m ρ c) (Proc.devRef .tc main_v17) = _
  after_results <;> rfl

theorem ws_dst (c : Dev nD) :
    V1 m ρ c main_v18 = extractStridedSlice S64x64 ![64, 0] (m ((c : Thread nD τ).loc main_arg6)) Facts₀.slices_S138x64_S64x64_64_0 := by
  show StableHlo.after hostOps0 (W0 m ρ c) (Proc.devRef .tc main_v18) = _
  after_results <;> rfl

theorem ws_dist (c : Dev nD) :
    V1 m ρ c main_v19 = extractStridedSlice S10x64 ![128, 0] (m ((c : Thread nD τ).loc main_arg6)) Facts₀.slices_S138x64_S10x64_128_0 := by
  show StableHlo.after hostOps0 (W0 m ρ c) (Proc.devRef .tc main_v19) = _
  after_results <;> rfl

/-- The message array as a function of the eight argument arrays: the two gathered row tables, the distances, the three
    row blocks of each weight matrix and the two biases. -/
def edgeMessagesOf (x0 : (⟨S50000x64, .f32⟩ : BufTy).Contents (Elt Ideal)) (x1 : (⟨S800000x10, .f32⟩ : BufTy).Contents (Elt Ideal))
    (x2 x3 : (⟨S800000, .i32⟩ : BufTy).Contents (Elt Ideal))
    (x4 : (⟨S138x64, .f32⟩ : BufTy).Contents (Elt Ideal)) (x5 : (⟨S64, .f32⟩ : BufTy).Contents (Elt Ideal))
    (x6 : (⟨S138x64, .f32⟩ : BufTy).Contents (Elt Ideal)) (x7 : (⟨S64, .f32⟩ : BufTy).Contents (Elt Ideal)) :
    (⟨S800000x64, .f32⟩ : BufTy).Contents (Elt Ideal) :=
  gated (rowsAt x0 x2) (rowsAt x0 x3) x1
    (extractStridedSlice S64x64 ![0, 0] x4 Facts₀.slices_S138x64_S64x64_0_0)
    (extractStridedSlice S64x64 ![64, 0] x4 Facts₀.slices_S138x64_S64x64_64_0)
    (extractStridedSlice S10x64 ![128, 0] x4 Facts₀.slices_S138x64_S10x64_128_0) x5
    (extractStridedSlice S64x64 ![0, 0] x6 Facts₀.slices_S138x64_S64x64_0_0)
    (extractStridedSlice S64x64 ![64, 0] x6 Facts₀.slices_S138x64_S64x64_64_0)
    (extractStridedSlice S10x64 ![128, 0] x6 Facts₀.slices_S138x64_S10x64_128_0) x7

/-- The layer as a function of the eight argument arrays: features + scatter-sum of the edge messages. -/
def layerOf (x0 : (⟨S50000x64, .f32⟩ : BufTy).Contents (Elt Ideal)) (x1 : (⟨S800000x10, .f32⟩ : BufTy).Contents (Elt Ideal))
    (x2 x3 : (⟨S800000, .i32⟩ : BufTy).Contents (Elt Ideal))
    (x4 : (⟨S138x64, .f32⟩ : BufTy).Contents (Elt Ideal)) (x5 : (⟨S64, .f32⟩ : BufTy).Contents (Elt Ideal))
    (x6 : (⟨S138x64, .f32⟩ : BufTy).Contents (Elt Ideal)) (x7 : (⟨S64, .f32⟩ : BufTy).Contents (Elt Ideal)) :
    (⟨S50000x64, .f32⟩ : BufTy).Contents (Elt Ideal) :=
  addf (F := Ideal) (s := S50000x64) (φ := .f32) x0 (summedInto x3 (edgeMessagesOf x0 x1 x2 x3 x4 x5 x6 x7))

/-- The message array from the launch contents. -/
abbrev edgeMessages (c : Dev nD) : S800000x64.Idx → EReal :=
  edgeMessagesOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- After the gate kernel its output array holds the message array. -/
theorem messages_left (c : Dev nD) : W2 m ρ c (Proc.devRef .tc main_v20) = edgeMessages m c := by
  refine (W2_arr m ρ c 11).trans ((GateBlocks.messages_final (V1 m ρ) c).trans ?_)
  unfold GateBlocks.messages
  rw [src_table, dst_table, dist_kept, bf_kept, bs_kept, wf_src, wf_dst, wf_dist, ws_src, ws_dst, ws_dist]
  rfl

/-! ### What the residual kernel finds in its two input arrays -/

theorem dst_kept2 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl

theorem feat_kept (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results <;> rfl

theorem summed_found (c : Dev nD) :
    V3 m ρ c main_v23 = summedInto (m ((c : Thread nD τ).loc main_arg3)) (edgeMessages m c) := by
  show StableHlo.after hostOps1 (W2 m ρ c) (Proc.devRef .tc main_v23) = _
  after_results
  rw [messages_left, dst_kept2]
  rfl

/-- The layer's result from the launch contents. -/
abbrev layerResult (c : Dev nD) : S50000x64.Idx → EReal :=
  layerOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- After the residual kernel the result array holds the layer's result. -/
theorem result_left (c : Dev nD) : W4 m ρ c (Proc.devRef .tc main_v24) = layerResult m c := by
  refine (W4_arr m ρ c 2).trans ((Residual.updated_final (V3 m ρ) c).trans ?_)
  unfold Residual.updated
  rw [feat_kept, summed_found]
  rfl

/-- THE KERNEL'S RUN: every weakly fair execution terminates without a fault with the result array at the layer's
    result and the arguments as launched. -/
theorem run : θ_run defs (onTc (τ := τ) (main (F := Ideal))) ⟨m, fun _ => 0, ρ⟩ (fun r => ∀ c : Dev nD,
      r.2.mem ((c.tc : Thread nD τ).loc main_v24) = layerResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_left m ρ c), (h c).2⟩) (run_fold m ρ)

end Value

end Cert.KernelIdeal.Run

end
-- ==== Proof.RefGate.lean ====
/-
  The reference's per-edge stage is the gated edge message.

  The reference joins the gathered source rows, the gathered destination rows and the distances into one [E, 138]
  array and multiplies it by each whole 138-row weight matrix. Entry (e, c) of that product is a sum over the 138
  joined coordinates, which splits into the sums over the three pieces, each against the matching row block of the
  weight matrix: the three partial products the kernel adds. The reference's sigmoid `1 / (1 + exp (-x))` is the
  logistic function by definition, and its softplus differs from the kernel's only in writing `-y` for `0 - y`.
-/
import proofs.«120334_j18210661335120_2_alg».proof.Proof.Gen.ReferenceIdeal.Read
import proofs.«120334_j18210661335120_2_alg».proof.Proof.LibMatProduct
import proofs.«120334_j18210661335120_2_alg».proof.Proof.EdgeGate
import Idealize.ShloMosaic.Lib.ValueLayout
import Idealize.ShloMosaic.Lib.Pipeline.Value

noncomputable section

namespace Cert.ReferenceIdeal.RefGate

open Idealize.ShloMosaic Idealize.ShloMosaic.ValueIdx Cert.ReferenceIdeal Cert.ReferenceIdeal.Read Cert.EdgeGate

/-- The shapes of a weight matrix's row blocks (the reference itself never cuts them). -/
abbrev S64x64 : Shape := ⟨2, ![64, 64]⟩
abbrev S10x64 : Shape := ⟨2, ![10, 64]⟩

/-! ## The joined array read at a coordinate of each piece -/

section Join

variable (A B : S800000x64.Idx → EReal) (D : S800000x10.Idx → EReal)
  (hcat : Shape.Concatenates [S800000x64, S800000x64, S800000x10] S800000x138 1)

theorem join_src (e : Fin 800000) (h : Fin 64) :
    concatenate S800000x138 1 [⟨S800000x64, A⟩, ⟨S800000x64, B⟩, ⟨S800000x10, D⟩] hcat (ix2 e ⟨h.val, by omega⟩) = A (ix2 e h) := by
  refine concatenate_apply_piece (1 : Fin S800000x138.rank) ([⟨S800000x64, A⟩, ⟨S800000x64, B⟩, ⟨S800000x10, D⟩] : List ((s : Shape) × (s.Idx → EReal))) hcat _ 0 (show 0 < 3 by omega) S800000x64 A rfl rfl 0 rfl (ix2 e h) ?_ ?_
  · intro b hb
    match b with
    | ⟨0, _⟩ => rfl
    | ⟨1, _⟩ => exact absurd rfl hb
  · show 0 + h.val = h.val
    omega

theorem join_dst (e : Fin 800000) (h : Fin 64) :
    concatenate S800000x138 1 [⟨S800000x64, A⟩, ⟨S800000x64, B⟩, ⟨S800000x10, D⟩] hcat (ix2 e ⟨64 + h.val, by omega⟩) = B (ix2 e h) := by
  refine concatenate_apply_piece (1 : Fin S800000x138.rank) ([⟨S800000x64, A⟩, ⟨S800000x64, B⟩, ⟨S800000x10, D⟩] : List ((s : Shape) × (s.Idx → EReal))) hcat _ 1 (show 1 < 3 by omega) S800000x64 B rfl rfl 64 rfl (ix2 e h) ?_ ?_
  · intro b hb
    match b with
    | ⟨0, _⟩ => rfl
    | ⟨1, _⟩ => exact absurd rfl hb
  · rfl

theorem join_dist (e : Fin 800000) (h : Fin 10) :
    concatenate S800000x138 1 [⟨S800000x64, A⟩, ⟨S800000x64, B⟩, ⟨S800000x10, D⟩] hcat (ix2 e ⟨128 + h.val, by omega⟩) = D (ix2 e h) := by
  refine concatenate_apply_piece (1 : Fin S800000x138.rank) ([⟨S800000x64, A⟩, ⟨S800000x64, B⟩, ⟨S800000x10, D⟩] : List ((s : Shape) × (s.Idx → EReal))) hcat _ 2 (show 2 < 3 by omega) S800000x10 D rfl rfl 128 rfl (ix2 e h) ?_ ?_
  · intro b hb
    match b with
    | ⟨0, _⟩ => rfl
    | ⟨1, _⟩ => exact absurd rfl hb
  · rfl

/-- One score of the reference at (e, c): the product of the joined row with column c of the whole weight matrix, plus
    the bias, is the kernel's sum of three partial products against the matrix's three row blocks. -/
theorem score_at (W : S138x64.Idx → EReal) (b : S64.Idx → EReal)
    (s0 : S138x64.Slices ![0, 0] S64x64) (s64 : S138x64.Slices ![64, 0] S64x64) (s128 : S138x64.Slices ![128, 0] S10x64)
    (e : Fin 800000) (c : Fin 64) :
    (∑ k : Fin 138, concatenate S800000x138 1 [⟨S800000x64, A⟩, ⟨S800000x64, B⟩, ⟨S800000x10, D⟩] hcat (ix2 e k) * W (ix2 k c)) + b (ix1 c)
      = mix (fun h => A (ix2 e h)) (fun h => B (ix2 e h)) (fun h => D (ix2 e h))
          (fun h => extractStridedSlice S64x64 ![0, 0] W s0 (ix2 h c))
          (fun h => extractStridedSlice S64x64 ![64, 0] W s64 (ix2 h c))
          (fun h => extractStridedSlice S10x64 ![128, 0] W s128 (ix2 h c)) (b (ix1 c)) := by
  unfold mix
  rw [sum_split]
  simp only [join_src, join_dst, join_dist]
  refine congrArg (· + b (ix1 c)) (congrArg₂ (· + ·) (congrArg₂ (· + ·) ?_ ?_) ?_)
  · refine Finset.sum_congr rfl fun h _ => congrArg (A (ix2 e h) * ·) ?_
    exact (slice2_axis0_apply 0 W s0 h c ⟨h.val, by omega⟩ (by show h.val = 0 + h.val; omega)).symm
  · refine Finset.sum_congr rfl fun h _ => congrArg (B (ix2 e h) * ·) ?_
    exact (slice2_axis0_apply 64 W s64 h c ⟨64 + h.val, by omega⟩ rfl).symm
  · refine Finset.sum_congr rfl fun h _ => congrArg (D (ix2 e h) * ·) ?_
    exact (slice2_axis0_apply 128 W s128 h c ⟨128 + h.val, by omega⟩ rfl).symm

end Join

/-! ## The reference's stages at an entry -/

section Stages

variable (x0 : (⟨S50000x64, .f32⟩ : BufTy).Contents (Elt Ideal)) (x1 : (⟨S800000x10, .f32⟩ : BufTy).Contents (Elt Ideal))
  (x2 x3 : (⟨S800000, .i32⟩ : BufTy).Contents (Elt Ideal))
  (x4 : (⟨S138x64, .f32⟩ : BufTy).Contents (Elt Ideal)) (x5 : (⟨S64, .f32⟩ : BufTy).Contents (Elt Ideal))
  (x6 : (⟨S138x64, .f32⟩ : BufTy).Contents (Elt Ideal)) (x7 : (⟨S64, .f32⟩ : BufTy).Contents (Elt Ideal))
  (s0 : S138x64.Slices ![0, 0] S64x64) (s64 : S138x64.Slices ![64, 0] S64x64) (s128 : S138x64.Slices ![128, 0] S10x64)

/-- The first score (`%18`) at (e, c). -/
theorem score_f (e : Fin 800000) (c : Fin 64) :
    val_main_v18 (F := Ideal) x0 x1 x2 x3 x4 x5 (ix2 e c)
      = mix (fun h => val_main_v6 (F := Ideal) x0 x2 (ix2 e h)) (fun h => val_main_v13 (F := Ideal) x0 x3 (ix2 e h)) (fun h => x1 (ix2 e h))
          (fun h => extractStridedSlice S64x64 ![0, 0] x4 s0 (ix2 h c))
          (fun h => extractStridedSlice S64x64 ![64, 0] x4 s64 (ix2 h c))
          (fun h => extractStridedSlice S10x64 ![128, 0] x4 s128 (ix2 h c)) (x5 (ix1 c)) := by
  have hl : ∀ k : Fin 138, lidx_main_v15 (ix2 e c) k = ix2 e k := fun k =>
    funext fun a => Fin.ext (by match a with | ⟨0, _⟩ => rfl | ⟨1, _⟩ => rfl)
  have hr : ∀ k : Fin 138, ridx_main_v15 (ix2 e c) k = ix2 k c := fun k =>
    funext fun a => Fin.ext (by match a with | ⟨0, _⟩ => rfl | ⟨1, _⟩ => rfl)
  have hb : idx_main_v16 (idx_main_v17 (ix2 e c)) = ix1 c :=
    funext fun a => Fin.ext (by match a with | ⟨0, _⟩ => rfl)
  rw [val_main_v18_apply, val_main_v15_apply, val_main_v17_apply, val_main_v16_apply]
  simp only [hl, hr, hb]
  unfold val_main_v14
  exact score_at (val_main_v6 (F := Ideal) x0 x2) (val_main_v13 (F := Ideal) x0 x3) x1 _ x4 x5 s0 s64 s128 e c

/-- The second score (`%28`) at (e, c). -/
theorem score_s (e : Fin 800000) (c : Fin 64) :
    val_main_v28 (F := Ideal) x0 x1 x2 x3 x6 x7 (ix2 e c)
      = mix (fun h => val_main_v6 (F := Ideal) x0 x2 (ix2 e h)) (fun h => val_main_v13 (F := Ideal) x0 x3 (ix2 e h)) (fun h => x1 (ix2 e h))
          (fun h => extractStridedSlice S64x64 ![0, 0] x6 s0 (ix2 h c))
          (fun h => extractStridedSlice S64x64 ![64, 0] x6 s64 (ix2 h c))
          (fun h => extractStridedSlice S10x64 ![128, 0] x6 s128 (ix2 h c)) (x7 (ix1 c)) := by
  have hl : ∀ k : Fin 138, lidx_main_v25 (ix2 e c) k = ix2 e k := fun k =>
    funext fun a => Fin.ext (by match a with | ⟨0, _⟩ => rfl | ⟨1, _⟩ => rfl)
  have hr : ∀ k : Fin 138, ridx_main_v25 (ix2 e c) k = ix2 k c := fun k =>
    funext fun a => Fin.ext (by match a with | ⟨0, _⟩ => rfl | ⟨1, _⟩ => rfl)
  have hb : idx_main_v26 (idx_main_v27 (ix2 e c)) = ix1 c :=
    funext fun a => Fin.ext (by match a with | ⟨0, _⟩ => rfl)
  rw [val_main_v28_apply, val_main_v25_apply, val_main_v27_apply, val_main_v26_apply]
  simp only [hl, hr, hb]
  unfold val_main_v14
  exact score_at (val_main_v6 (F := Ideal) x0 x2) (val_main_v13 (F := Ideal) x0 x3) x1 _ x6 x7 s0 s64 s128 e c

/-- The sigmoid stage (`%24`) is the logistic function of the first score. -/
theorem sigmoid_at (i : S800000x64.Idx) :
    val_main_v24 (F := Ideal) x0 x1 x2 x3 x4 x5 i = Ideal.logistic (val_main_v18 (F := Ideal) x0 x1 x2 x3 x4 x5 i) := by
  rw [val_main_v24_apply, val_main_v23_apply, val_main_cst_3_apply, val_main_v22_apply, val_main_v21_apply, val_main_cst_apply,
    val_main_v20_apply, val_main_v19_apply]
  simp only [Ideal.ofBits_def, Cert.LibMatProduct.one_word]
  rfl

/-- The softplus stage (`%29`) is softplus of the second score. -/
theorem softplus_at (i : S800000x64.Idx) :
    val_main_v29 (F := Ideal) x0 x1 x2 x3 x6 x7 i = softplus (val_main_v28 (F := Ideal) x0 x1 x2 x3 x6 x7 i) := by
  rw [val_main_v29_apply, val_main_call0_v4_apply, val_main_call0_v3_apply, val_main_call0_v2_apply, val_main_call0_cst_apply,
    val_main_call0_v6_apply, val_main_call0_v5_apply, val_main_call0_cst_apply, val_main_call0_v11_apply, val_main_call0_v1_apply,
    val_main_call0_v0_apply, val_main_call0_cst_apply, val_main_call0_v10_apply, val_main_call0_v9_apply, val_main_call0_v8_apply,
    val_main_call0_v7_apply, val_main_call0_v3_apply, val_main_call0_v2_apply, val_main_call0_cst_apply]
  exact softplus_neg _

/-- The reference's product stage (`%30`) is the message array of the gathered rows, the distances, the row blocks of
    the two weight matrices and the two biases. -/
theorem messages_eq :
    val_main_v30 (F := Ideal) x0 x1 x2 x3 x4 x5 x6 x7
      = gated (val_main_v6 (F := Ideal) x0 x2) (val_main_v13 (F := Ideal) x0 x3) x1
          (extractStridedSlice S64x64 ![0, 0] x4 s0) (extractStridedSlice S64x64 ![64, 0] x4 s64)
          (extractStridedSlice S10x64 ![128, 0] x4 s128) x5
          (extractStridedSlice S64x64 ![0, 0] x6 s0) (extractStridedSlice S64x64 ![64, 0] x6 s64)
          (extractStridedSlice S10x64 ![128, 0] x6 s128) x7 := by
  funext i
  obtain ⟨e, c, rfl⟩ : ∃ (e : Fin 800000) (c : Fin 64), i = ix2 e c := ⟨i 0, i 1, eq_ix2 i⟩
  rw [gated_ix2, val_main_v30_apply, sigmoid_at, softplus_at, score_f x0 x1 x2 x3 x4 x5 s0 s64 s128, score_s x0 x1 x2 x3 x6 x7 s0 s64 s128]
  rfl

end Stages

end Cert.ReferenceIdeal.RefGate

end
-- ==== Proof.Bridge.lean ====
/-
  The two programs compute one function of the argument arrays.

  The kernel program's result is features + scatter-sum of the message array, the messages formed from the gathered
  rows, the distances, the three row blocks of each weight matrix and the biases. The reference's last stage is
  features + scatter-sum of its product stage, which is that same message array; the gathers, the index wrap and
  the scatter-sum are the same operations of the same arguments in both programs.
-/
import proofs.«120334_j18210661335120_2_alg».proof.Proof.KernelRun
import proofs.«120334_j18210661335120_2_alg».proof.Proof.RefGate

noncomputable section

namespace Cert.LayerBridge

open Idealize.ShloMosaic

/-- The kernel program's layer function is the reference's result stage. -/
theorem layer_eq (x0 : (⟨Cert.ReferenceIdeal.S50000x64, .f32⟩ : BufTy).Contents (Elt Ideal))
    (x1 : (⟨Cert.ReferenceIdeal.S800000x10, .f32⟩ : BufTy).Contents (Elt Ideal))
    (x2 x3 : (⟨Cert.ReferenceIdeal.S800000, .i32⟩ : BufTy).Contents (Elt Ideal))
    (x4 : (⟨Cert.ReferenceIdeal.S138x64, .f32⟩ : BufTy).Contents (Elt Ideal)) (x5 : (⟨Cert.ReferenceIdeal.S64, .f32⟩ : BufTy).Contents (Elt Ideal))
    (x6 : (⟨Cert.ReferenceIdeal.S138x64, .f32⟩ : BufTy).Contents (Elt Ideal)) (x7 : (⟨Cert.ReferenceIdeal.S64, .f32⟩ : BufTy).Contents (Elt Ideal)) :
    Cert.ReferenceIdeal.Read.val_main_v34 (F := Ideal) x0 x1 x2 x3 x4 x5 x6 x7
      = Cert.KernelIdeal.Run.layerOf x0 x1 x2 x3 x4 x5 x6 x7 := by
  unfold Cert.ReferenceIdeal.Read.val_main_v34 Cert.ReferenceIdeal.Read.val_main_v33
  rw [Cert.ReferenceIdeal.RefGate.messages_eq x0 x1 x2 x3 x4 x5 x6 x7 Cert.KernelIdeal.Facts₀.slices_S138x64_S64x64_0_0
    Cert.KernelIdeal.Facts₀.slices_S138x64_S64x64_64_0 Cert.KernelIdeal.Facts₀.slices_S138x64_S10x64_128_0]
  rfl

end Cert.LayerBridge

end
-- ==== Proof.lean ====
/-
  The certificate of the gated graph-convolution layer:
      result = feature + segment_sum over destinations of  sigmoid(msg · Wf + bf) · softplus(msg · Ws + bs),
      msg = [feature[src] | feature[dst] | dist]   (one row of 138 numbers per edge).

  The kernel program gathers the source and destination rows on the host, cuts each weight matrix into its 64 + 64 + 10
  row blocks, runs a gate kernel over bands of 8000 edges that adds the three partial products instead of joining the
  rows, scatter-sums the messages on the host, and runs a residual kernel over bands of 5000 nodes that adds the
  features. The reference joins the rows and multiplies by the whole matrices. On the extended reals the two agree
  because a sum over the 138 joined coordinates is the sum of the three partial sums (commutativity and associativity
  of addition only: no finiteness of the inputs is used), the logistic function is `1 / (1 + exp (-x))` by definition,
  the two softplus spellings differ by `0 - y = -y`, and every other operation is the same operation of the same
  arguments. The frames of the two kernel programs are the generated ones; the reference's is its generated run.
-/
import proofs.«120334_j18210661335120_2_alg».proof.Defs
import proofs.«120334_j18210661335120_2_alg».proof.Proof.Gen.Kernel
import proofs.«120334_j18210661335120_2_alg».proof.Proof.Gen.Kernel.Skeleton
import proofs.«120334_j18210661335120_2_alg».proof.Proof.Gen.Kernel.Launch
import proofs.«120334_j18210661335120_2_alg».proof.Proof.Gen.Kernel.Points
import proofs.«120334_j18210661335120_2_alg».proof.Proof.Gen.Kernel.Frame
import proofs.«120334_j18210661335120_2_alg».proof.Proof.Gen.KernelIdeal
import proofs.«120334_j18210661335120_2_alg».proof.Proof.Gen.KernelIdeal.Skeleton
import proofs.«120334_j18210661335120_2_alg».proof.Proof.Gen.KernelIdeal.Launch
import proofs.«120334_j18210661335120_2_alg».proof.Proof.Gen.KernelIdeal.Points
import proofs.«120334_j18210661335120_2_alg».proof.Proof.Gen.KernelIdeal.Frame
import proofs.«120334_j18210661335120_2_alg».proof.Proof.Gen.ReferenceIdeal
import proofs.«120334_j18210661335120_2_alg».proof.Proof.Gen.Pre_finite_inputs
import proofs.«120334_j18210661335120_2_alg».proof.Proof.Gen.ReferenceIdeal.Run
import proofs.«120334_j18210661335120_2_alg».proof.Proof.Gen.ReferenceIdeal.Read
import proofs.«120334_j18210661335120_2_alg».proof.Proof.KernelRun
import proofs.«120334_j18210661335120_2_alg».proof.Proof.Bridge
import Idealize.ShloMosaic.Adequacy
import Idealize.ShloMosaic.Init

noncomputable section

namespace Cert.Proof

open Idealize.ShloMosaic Idealize.ShloMosaic.TcCoe Idealize.SL.Sem

namespace LayerClaims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the layer function of the (agreeing) argument arrays. -/
theorem algebraic : Cert.algebraic_KernelIdeal_ReferenceIdeal := by
  intro m ρ m' ρ' _ hagree
  refine ⟨fun c => Cert.KernelIdeal.Run.layerResult m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v34_eq, a0, a1, a2, a3, a4, a5, a6, a7]
  exact Cert.LayerBridge.layer_eq _ _ _ _ _ _ _ _

end LayerClaims

theorem claim : Cert.Claim := ⟨Cert.Kernel.Gen.facts, Cert.KernelIdeal.Gen.facts, Cert.ReferenceIdeal.Gen.facts, Cert.Pre_finite_inputs.Gen.facts,
  LayerClaims.frame_k, LayerClaims.frame_ki, LayerClaims.frame_ri, LayerClaims.preserves, LayerClaims.algebraic⟩

end Cert.Proof

end
